-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x4096 : Shape := ⟨2, ![1024, 4096]⟩
abbrev S4096x32 : Shape := ⟨2, ![4096, 32]⟩
abbrev S4096x1 : Shape := ⟨2, ![4096, 1]⟩
abbrev S1x1 : Shape := ⟨2, ![1, 1]⟩
abbrev S_ : Shape := ⟨0, ![]⟩

class Facts : Prop where
  bcast_S_S1024x4096 : S_.BroadcastsInDim S1024x4096 (![] : Fin 0 → Fin S1024x4096.rank)
  reducesTo_S1024x4096_S_d0_1 : S1024x4096.ReducesTo [0, 1] S_
  h_S_ : 0 < S_.numel
  bcast_S_S4096x32 : S_.BroadcastsInDim S4096x32 (![] : Fin 0 → Fin S4096x32.rank)
  reducesTo_S4096x32_S_d0_1 : S4096x32.ReducesTo [0, 1] S_
  bcast_S_S4096x1 : S_.BroadcastsInDim S4096x1 (![] : Fin 0 → Fin S4096x1.rank)
  reducesTo_S4096x1_S_d0_1 : S4096x1.ReducesTo [0, 1] S_
  bcast_S_S1x1 : S_.BroadcastsInDim S1x1 (![] : Fin 0 → Fin S1x1.rank)
  reducesTo_S1x1_S_d0_1 : S1x1.ReducesTo [0, 1] S_

variable [Facts]

def fn_part1 {F : FTy → Type} [FloatOps F] (main_v13 : IVec S_ 1) (main_v16 : IVec S1x1 1) : IVec S_ 1 :=
  let main_c_5 : IVec S_ 1 := constantI S_ 1 1#1
  let main_v17 : IVec S_ 1 := (fun x v => Host.reduce IntOp.andi x v reducesTo_S1x1_S_d0_1 h_S_) main_v16 main_c_5
  let main_v18 : IVec S_ 1 := andi main_v13 main_v17
  main_v18

def fn {F : FTy → Type} [FloatOps F] (main_arg0 : FVec F S1024x4096 .f32) (main_arg1 : FVec F S4096x32 .f32) (main_arg2 : FVec F S4096x1 .f32) (main_arg3 : FVec F S1x1 .f32) : IVec S_ 1 :=
  let main_v0 : FVec F S1024x4096 .f32 := Host.absf main_arg0
  let main_cst : FVec F S_ .f32 := constant S_ .f32 0x7F800000#32
  let main_v1 : FVec F S1024x4096 .f32 := broadcastInDim S1024x4096 ![] bcast_S_S1024x4096 main_cst
  let main_v2 : IVec S1024x4096 1 := cmpf .olt main_v0 main_v1
  let main_c : IVec S_ 1 := constantI S_ 1 1#1
  let main_v3 : IVec S_ 1 := (fun x v => Host.reduce IntOp.andi x v reducesTo_S1024x4096_S_d0_1 h_S_) main_v2 main_c
  let main_v4 : FVec F S4096x32 .f32 := Host.absf main_arg1
  let main_cst_0 : FVec F S_ .f32 := constant S_ .f32 0x7F800000#32
  let main_v5 : FVec F S4096x32 .f32 := broadcastInDim S4096x32 ![] bcast_S_S4096x32 main_cst_0
  let main_v6 : IVec S4096x32 1 := cmpf .olt main_v4 main_v5
  let main_c_1 : IVec S_ 1 := constantI S_ 1 1#1
  let main_v7 : IVec S_ 1 := (fun x v => Host.reduce IntOp.andi x v reducesTo_S4096x32_S_d0_1 h_S_) main_v6 main_c_1
  let main_v8 : IVec S_ 1 := andi main_v3 main_v7
  let main_v9 : FVec F S4096x1 .f32 := Host.absf main_arg2
  let main_cst_2 : FVec F S_ .f32 := constant S_ .f32 0x7F800000#32
  let main_v10 : FVec F S4096x1 .f32 := broadcastInDim S4096x1 ![] bcast_S_S4096x1 main_cst_2
  let main_v11 : IVec S4096x1 1 := cmpf .olt main_v9 main_v10
  let main_c_3 : IVec S_ 1 := constantI S_ 1 1#1
  let main_v12 : IVec S_ 1 := (fun x v => Host.reduce IntOp.andi x v reducesTo_S4096x1_S_d0_1 h_S_) main_v11 main_c_3
  let main_v13 : IVec S_ 1 := andi main_v8 main_v12
  let main_v14 : FVec F S1x1 .f32 := Host.absf main_arg3
  let main_cst_4 : FVec F S_ .f32 := constant S_ .f32 0x7F800000#32
  let main_v15 : FVec F S1x1 .f32 := broadcastInDim S1x1 ![] bcast_S_S1x1 main_cst_4
  let main_v16 : IVec S1x1 1 := cmpf .olt main_v14 main_v15
  fn_part1 (F := F) main_v13 main_v16
-- ==== Kernel.lean ====
abbrev S1024x4096 : Shape := ⟨2, ![1024, 4096]⟩
abbrev S4096x32 : Shape := ⟨2, ![4096, 32]⟩
abbrev S4096x1 : Shape := ⟨2, ![4096, 1]⟩
abbrev S1x1 : Shape := ⟨2, ![1, 1]⟩
abbrev S4096x33 : Shape := ⟨2, ![4096, 33]⟩
abbrev S_ : Shape := ⟨0, ![]⟩
abbrev S4096x128 : Shape := ⟨2, ![4096, 128]⟩
abbrev S1024x1 : Shape := ⟨2, ![1024, 1]⟩
abbrev S512x4096 : Shape := ⟨2, ![512, 4096]⟩
abbrev S512x1 : Shape := ⟨2, ![512, 1]⟩
abbrev S512x128 : Shape := ⟨2, ![512, 128]⟩
abbrev S512x32 : Shape := ⟨2, ![512, 32]⟩
abbrev S512 : Shape := ⟨1, ![512]⟩
abbrev S1024 : Shape := ⟨1, ![1024]⟩

abbrev nBuf : Space → Nat
  | .hbm => 10
  | .vmem => 6
  | .smem => 0
  | _ => 0

abbrev bufTy : (tb : Table) → Fin (tcTables nBuf tb) → BufTy
  | .hbm, ⟨0, _⟩ => ⟨S1024x4096, .f32⟩
  | .hbm, ⟨1, _⟩ => ⟨S4096x32, .f32⟩
  | .hbm, ⟨2, _⟩ => ⟨S4096x1, .f32⟩
  | .hbm, ⟨3, _⟩ => ⟨S1x1, .f32⟩
  | .hbm, ⟨4, _⟩ => ⟨S4096x33, .f32⟩
  | .hbm, ⟨5, _⟩ => ⟨S_, .i32⟩
  | .hbm, ⟨6, _⟩ => ⟨S_, .f32⟩
  | .hbm, ⟨7, _⟩ => ⟨S4096x128, .f32⟩
  | .hbm, ⟨8, _⟩ => ⟨S1024x1, .f32⟩
  | .hbm, ⟨9, _⟩ => ⟨S1024, .f32⟩
  | .local _ .vmem, ⟨0, _⟩ => ⟨S512x4096, .f32⟩
  | .local _ .vmem, ⟨1, _⟩ => ⟨S512x4096, .f32⟩
  | .local _ .vmem, ⟨2, _⟩ => ⟨S4096x128, .f32⟩
  | .local _ .vmem, ⟨3, _⟩ => ⟨S1x1, .f32⟩
  | .local _ .vmem, ⟨4, _⟩ => ⟨S512x1, .f32⟩
  | .local _ .vmem, ⟨5, _⟩ => ⟨S512x1, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  concatenates_S4096x32_S4096x1_S4096x33_d1 : Shape.Concatenates [S4096x32, S4096x1] S4096x33 1
  pads_S4096x33_S4096x128_000_0950 : S4096x33.Pads (![0, 0] : Fin 2 → Nat) ![0, 95] ![0, 0] S4096x128
  h_S_ : 0 < S_.numel
  inb_S512x4096_S512x4096_0_0 : ∀ a, (![0, 0] : Fin 2 → Nat) a + S512x4096.size a ≤ S512x4096.size a
  h_S512x4096 : 0 < S512x4096.numel
  bitsLt_bf16_f32 : FTy.bits .bf16 < FTy.bits .f32
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  slices_S512x128_o0_0_S512x32 : S512x128.Slices ![0, 0] S512x32
  slices_S512x128_o0_32_S512x1 : S512x128.Slices ![0, 32] S512x1
  reduces_S512x32_S512 : S512x32.Reduces [1] S512
  shapeCasts_S512_S512x1 : S512.ShapeCasts S512x1
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  inb_S512x1_S512x1_0_0 : ∀ a, (![0, 0] : Fin 2 → Nat) a + S512x1.size a ≤ S512x1.size a
  h_S512x1 : 0 < S512x1.numel
  shapeCasts_S1024x1_S1024 : S1024x1.ShapeCasts S1024
  dot_S512x4096_S4096x128_S512x128_1_0_0_1_n_n_wf : DotDims.WF S512x4096 S4096x128 S512x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x4096.size a ≤ S1024x4096.size a
  hwx0_0 : ∀ i : grid0.Coords, EltTy.bits .f32 = 32 ∨ (Rect.block (s := S1024x4096) S512x4096.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S4096x128.size a
  hwx0_1 : ∀ i : grid0.Coords, EltTy.bits .f32 = 32 ∨ (Rect.block (s := S4096x128) S4096x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x1.size a ≤ S1024x1.size a
  hwx0_3 : ∀ i : grid0.Coords, EltTy.bits .f32 = 32 ∨ (Rect.block (s := S1024x1) S512x1.size (cc0_transform_3 i) (hinb0_3 i)).WholeWords (EltTy.packing .f32)

variable [Facts₀]

def dot_S512x4096_S4096x128_S512x128_1_0_0_1_n_n : DotDims S512x4096 S4096x128 S512x128 where
  lhsContracting := [1]
  rhsContracting := [0]
  lhsNonContracting := [0]
  rhsNonContracting := [1]
  lhsBatch := []
  rhsBatch := []
  wf := dot_S512x4096_S4096x128_S512x128_1_0_0_1_n_n_wf

abbrev win0_0 : Pipeline.Window sig grid0 :=
  Pipeline.Window.ofSpec (Memref.whole main_arg0) S512x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S4096x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S1024x4096 : Shape := ⟨2, ![1024, 4096]⟩
abbrev S4096x32 : Shape := ⟨2, ![4096, 32]⟩
abbrev S4096x1 : Shape := ⟨2, ![4096, 1]⟩
abbrev S1x1 : Shape := ⟨2, ![1, 1]⟩
abbrev S1024x4096x1 : Shape := ⟨3, ![1024, 4096, 1]⟩
abbrev S1x4096x32 : Shape := ⟨3, ![1, 4096, 32]⟩
abbrev S1024x4096x32 : Shape := ⟨3, ![1024, 4096, 32]⟩
abbrev S_ : Shape := ⟨0, ![]⟩
abbrev S1024x32 : Shape := ⟨2, ![1024, 32]⟩
abbrev S1024 : Shape := ⟨1, ![1024]⟩
abbrev S4096 : Shape := ⟨1, ![4096]⟩
abbrev S1x4096 : Shape := ⟨2, ![1, 4096]⟩

abbrev nBuf : Space → Nat
  | .hbm => 32
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096x32, .f32⟩
  | .hbm, ⟨2, _⟩ => ⟨S4096x1, .f32⟩
  | .hbm, ⟨3, _⟩ => ⟨S1x1, .f32⟩
  | .hbm, ⟨4, _⟩ => ⟨S1024x4096x1, .f32⟩
  | .hbm, ⟨5, _⟩ => ⟨S1x4096x32, .f32⟩
  | .hbm, ⟨6, _⟩ => ⟨S1024x4096x32, .f32⟩
  | .hbm, ⟨7, _⟩ => ⟨S1024x4096x32, .f32⟩
  | .hbm, ⟨8, _⟩ => ⟨S1024x4096x32, .f32⟩
  | .hbm, ⟨9, _⟩ => ⟨S_, .f32⟩
  | .hbm, ⟨10, _⟩ => ⟨S1024x32, .f32⟩
  | .hbm, ⟨11, _⟩ => ⟨S1024x32, .f32⟩
  | .hbm, ⟨12, _⟩ => ⟨S_, .f32⟩
  | .hbm, ⟨13, _⟩ => ⟨S1024, .f32⟩
  | .hbm, ⟨14, _⟩ => ⟨S4096, .f32⟩
  | .hbm, ⟨15, _⟩ => ⟨S1x4096, .f32⟩
  | .hbm, ⟨16, _⟩ => ⟨S1024x4096, .f32⟩
  | .hbm, ⟨17, _⟩ => ⟨S1024x4096, .f32⟩
  | .hbm, ⟨18, _⟩ => ⟨S_, .f32⟩
  | .hbm, ⟨19, _⟩ => ⟨S1024, .f32⟩
  | .hbm, ⟨20, _⟩ => ⟨S_, .f32⟩
  | .hbm, ⟨21, _⟩ => ⟨S1024, .f32⟩
  | .hbm, ⟨22, _⟩ => ⟨S1024, .f32⟩
  | .hbm, ⟨23, _⟩ => ⟨S1024, .f32⟩
  | .hbm, ⟨24, _⟩ => ⟨S1024, .f32⟩
  | .hbm, ⟨25, _⟩ => ⟨S1024, .f32⟩
  | .hbm, ⟨26, _⟩ => ⟨S_, .f32⟩
  | .hbm, ⟨27, _⟩ => ⟨S1024, .f32⟩
  | .hbm, ⟨28, _⟩ => ⟨S1024, .f32⟩
  | .hbm, ⟨29, _⟩ => ⟨S_, .f32⟩
  | .hbm, ⟨30, _⟩ => ⟨S1024, .f32⟩
  | .hbm, ⟨31, _⟩ => ⟨S1024, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_cst_3 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]

class Facts₀ : Prop where
  bcast_S1024x4096_S1024x4096x1_0_1 : S1024x4096.BroadcastsInDim S1024x4096x1 (![0, 1] : Fin 2 → Fin S1024x4096x1.rank)
  bcast_S4096x32_S1x4096x32_1_2 : S4096x32.BroadcastsInDim S1x4096x32 (![1, 2] : Fin 2 → Fin S1x4096x32.rank)
  bcast_S1024x4096x1_S1024x4096x32_0_1_2 : S1024x4096x1.BroadcastsInDim S1024x4096x32 (![0, 1, 2] : Fin 3 → Fin S1024x4096x32.rank)
  bcast_S1x4096x32_S1024x4096x32_0_1_2 : S1x4096x32.BroadcastsInDim S1024x4096x32 (![0, 1, 2] : Fin 3 → Fin S1024x4096x32.rank)
  reducesTo_S1024x4096x32_S1024x32_d1 : S1024x4096x32.ReducesTo [1] S1024x32
  h_S_ : 0 < S_.numel
  reducesTo_S1024x32_S1024_d1 : S1024x32.ReducesTo [1] S1024
  shapeCasts_S4096x1_S4096 : S4096x1.ShapeCasts S4096
  bcast_S4096_S1x4096_1 : S4096.BroadcastsInDim S1x4096 (![1] : Fin 1 → Fin S1x4096.rank)
  bcast_S1x4096_S1024x4096_0_1 : S1x4096.BroadcastsInDim S1024x4096 (![0, 1] : Fin 2 → Fin S1024x4096.rank)
  reducesTo_S1024x4096_S1024_d1 : S1024x4096.ReducesTo [1] S1024
  shapeCasts_S1x1_S_ : S1x1.ShapeCasts S_
  bcast_S_S1024 : S_.BroadcastsInDim S1024 (![] : Fin 0 → Fin S1024.rank)

variable [Facts₀]

class Facts : Prop extends Facts₀ where

variable [Facts]
-- ==== Proof.Spec.lean ====
/-
  The prediction of a second-order factorization model, one row at a time, on the extended reals.

  A row of `data` holds 4096 feature values. Each feature `k` has a vector of 32 weights `embed (k, ·)` and one linear
  weight `bias (k, 0)`; `gb (0, 0)` is a global offset. With
      lin r    = ∑ k, data (r, k) * bias (k, 0)
      proj r d = ∑ k, data (r, k) * embed (k, d)
  the prediction for row `r` is
      pred r = logistic ((gb (0, 0) + lin r) + ∑ d, proj r d * proj r d),      logistic z = 1 / (1 + e^(-z)).

  The same number can be computed from ONE product: put the 32 weight columns, then the linear weights as column 32,
  side by side in a 4096 × 128 array `aug` (whatever the remaining columns hold). Then `proj r d` is entry `(r, d)` and
  `lin r` is entry `(r, 32)` of `rows × aug`: `fusedPred`. Only sums of the SAME products appear on the two sides, so the
  two agree for all extended reals, infinite entries included (`fusedPred_eq_pred`).

  `fusedPred` of a block of rows is that block of `fusedPred` of all rows (`fusedPred_rows`): a row's prediction
  depends on that row only.
-/
import Idealize.ShloMosaic.PureOps.Ideal
import Idealize.ShloMosaic.Lib.ValueIdx

noncomputable section

namespace Cert.Spec

open Idealize.ShloMosaic Idealize.ShloMosaic.ValueIdx
open scoped BigOperators

/-- Column `d < 32` of the 128-column fused array. -/
abbrev wcol (d : Fin 32) : Fin 128 := ⟨d.val, by have := d.isLt; omega⟩
/-- The column of the fused array that holds the linear weights. -/
abbrev lcol : Fin 128 := ⟨32, by omega⟩

/-- The linear term of row `r`. -/
def lin (data : (⟨2, ![1024, 4096]⟩ : Shape).Idx → EReal) (bias : (⟨2, ![4096, 1]⟩ : Shape).Idx → EReal) (r : Fin 1024) : EReal :=
  ∑ k : Fin 4096, data (ix2 r k) * bias (ix2 k (0 : Fin 1))

/-- Coordinate `d` of row `r`'s weighted sum of the features' weight vectors. -/
def proj (data : (⟨2, ![1024, 4096]⟩ : Shape).Idx → EReal) (embed : (⟨2, ![4096, 32]⟩ : Shape).Idx → EReal) (r : Fin 1024)
    (d : Fin 32) : EReal :=
  ∑ k : Fin 4096, data (ix2 r k) * embed (ix2 k d)

/-- The prediction for row `r`. -/
def pred (data : (⟨2, ![1024, 4096]⟩ : Shape).Idx → EReal) (embed : (⟨2, ![4096, 32]⟩ : Shape).Idx → EReal)
    (bias : (⟨2, ![4096, 1]⟩ : Shape).Idx → EReal) (gb : (⟨2, ![1, 1]⟩ : Shape).Idx → EReal) (r : Fin 1024) : EReal :=
  Ideal.logistic ((gb (ix2 (0 : Fin 1) (0 : Fin 1)) + lin data bias r) + ∑ d : Fin 32, proj data embed r d * proj data embed r d)

/-- The predictions as a vector of 1024 entries. -/
def predVec (data : (⟨2, ![1024, 4096]⟩ : Shape).Idx → EReal) (embed : (⟨2, ![4096, 32]⟩ : Shape).Idx → EReal)
    (bias : (⟨2, ![4096, 1]⟩ : Shape).Idx → EReal) (gb : (⟨2, ![1, 1]⟩ : Shape).Idx → EReal) : (⟨1, ![1024]⟩ : Shape).Idx → EReal :=
  fun i => pred data embed bias gb ⟨(i 0).val, (i 0).isLt⟩

/-- Entry `(r, q)` of `rows × aug`. -/
def prod {R : ℕ} (rows : (⟨2, ![R, 4096]⟩ : Shape).Idx → EReal) (aug : (⟨2, ![4096, 128]⟩ : Shape).Idx → EReal) (r : Fin R)
    (q : Fin 128) : EReal :=
  ∑ k : Fin 4096, rows (ix2 r k) * aug (ix2 k q)

/-- The prediction for row `r` from the one product with the fused array. -/
def fusedPred {R : ℕ} (rows : (⟨2, ![R, 4096]⟩ : Shape).Idx → EReal) (aug : (⟨2, ![4096, 128]⟩ : Shape).Idx → EReal)
    (gb : (⟨2, ![1, 1]⟩ : Shape).Idx → EReal) (r : Fin R) : EReal :=
  Ideal.logistic ((gb (ix2 (0 : Fin 1) (0 : Fin 1)) + prod rows aug r lcol) + ∑ d : Fin 32, prod rows aug r (wcol d) * prod rows aug r (wcol d))

/-- The fused predictions as a column of `R` entries. -/
def fusedCol {R : ℕ} (rows : (⟨2, ![R, 4096]⟩ : Shape).Idx → EReal) (aug : (⟨2, ![4096, 128]⟩ : Shape).Idx → EReal)
    (gb : (⟨2, ![1, 1]⟩ : Shape).Idx → EReal) : (⟨2, ![R, 1]⟩ : Shape).Idx → EReal :=
  fun j => fusedPred rows aug gb ⟨(j 0).val, idx2_lt0 j⟩

/-- When the fused array's first 32 columns are the weight vectors and its column 32 the linear weights, the fused
    prediction is the prediction: term by term the same sums. -/
theorem fusedPred_eq_pred (data : (⟨2, ![1024, 4096]⟩ : Shape).Idx → EReal) (embed : (⟨2, ![4096, 32]⟩ : Shape).Idx → EReal)
    (bias : (⟨2, ![4096, 1]⟩ : Shape).Idx → EReal) (gb : (⟨2, ![1, 1]⟩ : Shape).Idx → EReal)
    (aug : (⟨2, ![4096, 128]⟩ : Shape).Idx → EReal)
    (hw : ∀ (k : Fin 4096) (d : Fin 32), aug (ix2 k (wcol d)) = embed (ix2 k d))
    (hl : ∀ k : Fin 4096, aug (ix2 k lcol) = bias (ix2 k (0 : Fin 1))) (r : Fin 1024) :
    fusedPred data aug gb r = pred data embed bias gb r := by
  have e1 : prod data aug r lcol = lin data bias r := Finset.sum_congr rfl fun k _ => by rw [hl k]
  have e2 : ∀ d : Fin 32, prod data aug r (wcol d) = proj data embed r d := fun d =>
    Finset.sum_congr rfl fun k _ => by rw [hw k d]
  unfold fusedPred pred
  rw [e1]
  simp only [e2]

/-- Rows `o, o + 1, …` : the prediction of row `y` of a block of rows is the prediction of row `o + y` of the whole. -/
theorem fusedPred_rows {M R : ℕ} (o : ℕ) (rows : (⟨2, ![M, 4096]⟩ : Shape).Idx → EReal) (blk : (⟨2, ![R, 4096]⟩ : Shape).Idx → EReal)
    (aug : (⟨2, ![4096, 128]⟩ : Shape).Idx → EReal) (gb : (⟨2, ![1, 1]⟩ : Shape).Idx → EReal)
    (y : Fin R) (h : o + y.val < M)
    (hb : ∀ k : Fin 4096, blk (ix2 y k) = rows (ix2 (⟨o + y.val, h⟩ : Fin M) k)) :
    fusedPred blk aug gb y = fusedPred rows aug gb ⟨o + y.val, h⟩ := by
  have e : ∀ q : Fin 128, prod blk aug y q = prod rows aug ⟨o + y.val, h⟩ q := fun q =>
    Finset.sum_congr rfl fun k _ => by rw [hb k]
  unfold fusedPred
  simp only [e]

end Cert.Spec

end
-- ==== Proof.LibPlainDot.lean ====
/-
  A plain matrix product read at an index, at the ideal values.

  For the plain dimension numbers of an `[M, K]` by `[K, N]` product (contract the left operand's second axis with the
  right operand's first; no batch axis) the contraction index has one coordinate, so the sum over it is a sum over
  `k : Fin K`, and the operand indices at the result index `(p, q)` are `(p, k)` and `(k, q)`. Hence, on the extended
  reals, a matrix-unit product accumulated into the zero splat and a host `dot_general` are ONE function of their
  operands, `rowsTimes`: entry `(p, q)` is `∑ k, l (p, k) * r (k, q)`.

  `rowsTimes` of a block of rows is that block of rows of `rowsTimes` (`rowsTimes_rows`): an entry depends on its own
  row of the left operand only.
-/
import Idealize.ShloMosaic.PureOps.Ideal.Laws
import Idealize.ShloMosaic.Lib.ValueIdx

noncomputable section

namespace Cert.LibPlainDot

open Idealize.ShloMosaic Idealize.ShloMosaic.ValueIdx

/-- The product of an `[M, K]` array of extended reals with a `[K, N]` one: entry `(p, q)` is the sum over `k` of
    `l (p, k) * r (k, q)`. -/
def rowsTimes {M K N : ℕ} (l : (⟨2, ![M, K]⟩ : Shape).Idx → EReal) (r : (⟨2, ![K, N]⟩ : Shape).Idx → EReal) :
    (⟨2, ![M, N]⟩ : Shape).Idx → EReal :=
  fun j => ∑ k : Fin K, l (ix2 (⟨(j 0).val, idx2_lt0 j⟩ : Fin M) k) * r (ix2 k (⟨(j 1).val, idx2_lt1 j⟩ : Fin N))

theorem rowsTimes_apply {M K N : ℕ} (l : (⟨2, ![M, K]⟩ : Shape).Idx → EReal) (r : (⟨2, ![K, N]⟩ : Shape).Idx → EReal)
    (p : Fin M) (q : Fin N) : rowsTimes l r (ix2 p q) = ∑ k : Fin K, l (ix2 p k) * r (ix2 k q) := rfl

/-- The plain dimension numbers contract one axis, of extent `K`. -/
theorem plain_contr_rank (M K N : ℕ) : (DotDims.plain M K N).contr.rank = 1 := rfl
theorem plain_contr_size (M K N : ℕ) : (DotDims.plain M K N).contr.size ⟨0, by rw [plain_contr_rank]; exact Nat.one_pos⟩ = K := rfl

/-- The operands' indices at result index `j` and contraction index `q`: rows of the left operand follow the result's
    row, columns of the right operand the result's column, and the contracted axes the contraction coordinate. -/
theorem plain_lhs0 (M K N : ℕ) (j : (⟨2, ![M, N]⟩ : Shape).Idx) (q : (DotDims.plain M K N).contr.Idx) :
    ((DotDims.plain M K N).lhsIdx j q 0).val = (j 0).val := rfl
theorem plain_lhs1 (M K N : ℕ) (j : (⟨2, ![M, N]⟩ : Shape).Idx) (q : (DotDims.plain M K N).contr.Idx) :
    ((DotDims.plain M K N).lhsIdx j q 1).val = (q ⟨0, by rw [plain_contr_rank]; exact Nat.one_pos⟩).val := rfl
theorem plain_rhs0 (M K N : ℕ) (j : (⟨2, ![M, N]⟩ : Shape).Idx) (q : (DotDims.plain M K N).contr.Idx) :
    ((DotDims.plain M K N).rhsIdx j q 0).val = (q ⟨0, by rw [plain_contr_rank]; exact Nat.one_pos⟩).val := rfl
theorem plain_rhs1 (M K N : ℕ) (j : (⟨2, ![M, N]⟩ : Shape).Idx) (q : (DotDims.plain M K N).contr.Idx) :
    ((DotDims.plain M K N).rhsIdx j q 1).val = (j 1).val := rfl

/-- The sum over the contraction index of the operands' products is `rowsTimes`. -/
theorem plain_sum {M K N : ℕ} (l : (⟨2, ![M, K]⟩ : Shape).Idx → EReal) (r : (⟨2, ![K, N]⟩ : Shape).Idx → EReal)
    (j : (⟨2, ![M, N]⟩ : Shape).Idx) :
    ∑ q : (DotDims.plain M K N).contr.Idx, l ((DotDims.plain M K N).lhsIdx j q) * r ((DotDims.plain M K N).rhsIdx j q)
      = rowsTimes l r j := by
  unfold rowsTimes
  rw [← Equiv.sum_comp (contrEquiv1 (DotDims.plain M K N) K (plain_contr_rank M K N) (plain_contr_size M K N)).symm]
  refine Finset.sum_congr rfl fun k _ => ?_
  have hk := contrEquiv1_symm_val (DotDims.plain M K N) K (plain_contr_rank M K N) (plain_contr_size M K N) k
  have el : (DotDims.plain M K N).lhsIdx j ((contrEquiv1 (DotDims.plain M K N) K (plain_contr_rank M K N) (plain_contr_size M K N)).symm k)
      = ix2 (⟨(j 0).val, idx2_lt0 j⟩ : Fin M) k := funext fun a => Fin.ext (by
    match a with
    | ⟨0, _⟩ => exact plain_lhs0 M K N j _
    | ⟨1, _⟩ => exact (plain_lhs1 M K N j _).trans hk)
  have er : (DotDims.plain M K N).rhsIdx j ((contrEquiv1 (DotDims.plain M K N) K (plain_contr_rank M K N) (plain_contr_size M K N)).symm k)
      = ix2 k (⟨(j 1).val, idx2_lt1 j⟩ : Fin N) := funext fun a => Fin.ext (by
    match a with
    | ⟨0, _⟩ => exact (plain_rhs0 M K N j _).trans hk
    | ⟨1, _⟩ => exact plain_rhs1 M K N j _)
  rw [el, er]

/-- A matrix-unit product accumulated into the zero splat, over the plain dimension numbers, is `rowsTimes`. -/
theorem matmul_zero_plain {M K N : ℕ} {φ₁ φ₂ : FTy} (prec : Option ContractPrecision)
    (l : FVec Ideal ⟨2, ![M, K]⟩ φ₁) (r : FVec Ideal ⟨2, ![K, N]⟩ φ₂) :
    FloatOps.matmul (DotDims.plain M K N) prec l r (constant ⟨2, ![M, N]⟩ .f32 0x00000000#32) = rowsTimes l r :=
  funext fun j => (Ideal.matmul_constant_zero_apply (DotDims.plain M K N) prec l r j).trans (plain_sum l r j)

/-- The host's `dot_general` over the plain dimension numbers is `rowsTimes`, whatever the schedule. -/
theorem dotGeneral_plain {M K N : ℕ} {φ₁ φ₂ : FTy} (prec : Option ContractPrecision) (sched : HostSchedule)
    (l : FVec Ideal ⟨2, ![M, K]⟩ φ₁) (r : FVec Ideal ⟨2, ![K, N]⟩ φ₂) :
    FloatOps.dotGeneral (DotDims.plain M K N) prec sched l r = rowsTimes l r :=
  funext fun j => (Ideal.dotGeneral_apply (DotDims.plain M K N) prec sched l r j).trans (plain_sum l r j)

/-- Rows `o, o + 1, …, o + R - 1` of a product are the product of those rows of the left operand: if `lb` is that
    block of rows of `l`, then `rowsTimes lb r` is the same block of rows of `rowsTimes l r`. -/
theorem rowsTimes_rows {M R K N : ℕ} (o : ℕ) (l : (⟨2, ![M, K]⟩ : Shape).Idx → EReal) (lb : (⟨2, ![R, K]⟩ : Shape).Idx → EReal)
    (r : (⟨2, ![K, N]⟩ : Shape).Idx → EReal)
    (hl : ∀ (y : Fin R) (k : Fin K) (h : o + y.val < M), lb (ix2 y k) = l (ix2 (⟨o + y.val, h⟩ : Fin M) k))
    (y : (⟨2, ![R, N]⟩ : Shape).Idx) (i : (⟨2, ![M, N]⟩ : Shape).Idx) (h0 : (i 0).val = o + (y 0).val) (h1 : (i 1).val = (y 1).val) :
    rowsTimes lb r y = rowsTimes l r i := by
  unfold rowsTimes
  refine Finset.sum_congr rfl fun k _ => ?_
  have hM : o + (y 0).val < M := h0 ▸ idx2_lt0 i
  rw [hl ⟨(y 0).val, idx2_lt0 y⟩ k hM]
  have e0 : (⟨o + (y 0).val, hM⟩ : Fin M) = ⟨(i 0).val, idx2_lt0 i⟩ := Fin.ext h0.symm
  have e1 : (⟨(y 1).val, idx2_lt1 y⟩ : Fin N) = ⟨(i 1).val, idx2_lt1 i⟩ := Fin.ext h1.symm
  rw [e0, e1]

end Cert.LibPlainDot

end
-- ==== Proof.LibRowOps.lean ====
/-
  Rows of a matrix read at an index, for any number of rows `R` and any width `W`.

  A sum along the rows of an `[R, W]` array — the vector unit's lane reduction with a zero accumulator, or the
  host's reduce from an initial value — is, at row `r`, the sum over `k : Fin W` of the entries `(r, k)`
  (the host's: the initial value plus that sum). A vector `[R]` broadcast to a column `[R, 1]` reads its entry
  `r`, and a column `[R, 1]` broadcast along its unit axis to `[R, W]` reads its entry `(r, 0)`. All are stated at
  indices built from literal coordinates, so they rewrite a payload whatever the width.
-/
import Idealize.ShloMosaic.PureOps.Ideal.Laws
import Idealize.ShloMosaic.Lib.Pipeline.Value
import Idealize.ShloMosaic.Lib.ValueIdx
import Idealize.ShloMosaic.Lib.IdealHost

namespace Cert.RowOps

open Idealize.ShloMosaic Idealize.ShloMosaic.ValueIdx
open scoped BigOperators

variable {R W : ℕ} {α : Type}

/-- Over row `r`, the index with column `k` inserted is `(r, k)`. -/
theorem lift_row (h : (⟨2, ![R, W]⟩ : Shape).Reduces [1] ⟨1, ![R]⟩) (r : Fin R) (k : Fin W) :
    h.lift (ix1 r) k = ix2 r k := by
  funext c
  match c with
  | ⟨0, _⟩ => exact Fin.ext rfl
  | ⟨1, _⟩ => exact Fin.ext rfl

/-- A lane sum with the zero accumulator, at row `r`: the sum of the row's entries. -/
theorem rowSumK (src : FVec Ideal ⟨2, ![R, W]⟩ .f32) (h : (⟨2, ![R, W]⟩ : Shape).Reduces [1] ⟨1, ![R]⟩)
    (hφ : FKind.Formats .f32) (hacc : (0x00000000#32 : BitVec 32) = 0x00000000#32) (r : Fin R) :
    multiReduction .add [1] ⟨1, ![R]⟩ src 0x00000000#32 h hφ hacc (ix1 r) = ∑ k : Fin W, src (ix2 r k) := by
  refine (Ideal.multiReduction_add_single src _ h hφ hacc (ix1 r)).trans ?_
  exact Finset.sum_congr rfl fun k _ => congrArg src (lift_row h r k)

/-- The host's sum along the rows from an initial value, at row `r`: that value plus the sum of the row's entries. -/
theorem rowSumH {u : Shape} (x : FVec Ideal ⟨2, ![R, W]⟩ .f32) (init : u.Idx → Ideal .f32)
    (h : (⟨2, ![R, W]⟩ : Shape).ReducesTo [1] ⟨1, ![R]⟩) (hu : 0 < u.numel) (r : Fin R) :
    Host.reduceAdd x init h hu (ix1 r) = init (Shape.Idx.first hu) + ∑ k : Fin W, x (ix2 r k) := by
  have h' : (⟨2, ![R, W]⟩ : Shape).Reduces [1] ⟨1, ![R]⟩ := h.elim fun e hb => ⟨e, Nat.one_pos, hb⟩
  refine (hostReduceAdd_apply x init h hu (ix1 r)).trans ?_
  refine (Ideal.hostReduceAdd_single h h' x _ (ix1 r)).trans ?_
  exact congrArg _ (Finset.sum_congr rfl fun k _ => congrArg x (lift_row h' r k))

/-- A vector `[R]` broadcast to a column `[R, 1]` reads, at `(r, u)`, its entry `r`. -/
theorem bcastCol (v : (⟨1, ![R]⟩ : Shape).Idx → α)
    (h : (⟨1, ![R]⟩ : Shape).BroadcastsInDim ⟨2, ![R, 1]⟩ (![0] : Fin 1 → Fin 2)) (r : Fin R) (u : Fin 1) :
    broadcastInDim ⟨2, ![R, 1]⟩ (![0] : Fin 1 → Fin 2) h v (ix2 r u) = v (ix1 r) := by
  refine broadcastInDim_apply _ h v (ix2 r u) (ix1 r) fun a => ?_
  match a with
  | ⟨0, _⟩ =>
    show r.val = if R = 1 then 0 else r.val
    split
    · have := r.isLt; omega
    · rfl

/-- A column `[R, 1]` broadcast to `[R, W]` reads, at `(r, k)`, its entry `(r, 0)`. -/
theorem bcastRows (v : (⟨2, ![R, 1]⟩ : Shape).Idx → α)
    (h : (⟨2, ![R, 1]⟩ : Shape).BroadcastsInDim ⟨2, ![R, W]⟩ (![0, 1] : Fin 2 → Fin 2)) (r : Fin R) (k : Fin W) :
    broadcastInDim ⟨2, ![R, W]⟩ (![0, 1] : Fin 2 → Fin 2) h v (ix2 r k) = v (ix2 r (0 : Fin 1)) := by
  refine broadcastInDim_apply _ h v (ix2 r k) (ix2 r (0 : Fin 1)) fun a => ?_
  match a with
  | ⟨0, _⟩ =>
    show r.val = if R = 1 then 0 else r.val
    split
    · have := r.isLt; omega
    · rfl
  | ⟨1, _⟩ => rfl

end Cert.RowOps
-- ==== Proof.LibColumns.lean ====
/-
  Column vectors read at an index: the keep-dimension forms of a shape cast and a broadcast.

  A row reduction that keeps its reduced axis leaves an `[a, 1]` column. Three layout steps meet such a column:
  an `[a]` vector cast to the column (entry (i, 0) is entry i), the column cast to a `[1, a]` row (entry (0, i) is
  entry (i, 0): both sit at row-major position i), and the column broadcast along its unit axis to `[a, b]`
  (entry (p, c) is entry (p, 0)). Each is stated at indices built from literal coordinates.
-/
import Idealize.ShloMosaic.Lib.Pipeline.Value
import Idealize.ShloMosaic.Lib.ValueIdx

namespace Cert.Columns

open Idealize.ShloMosaic Idealize.ShloMosaic.ValueIdx

variable {α : Type}

/-- An `[a]` vector cast to an `[a, 1]` column reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column cast to a `[1, a]` row reads, at `(u, i)`, the operand at `(i, 0)`. -/
theorem shapeCast_a1_1a_apply {a : ℕ} (x : (⟨2, ![a, 1]⟩ : Shape).Idx → α) (h : (⟨2, ![a, 1]⟩ : Shape).ShapeCasts ⟨2, ![1, a]⟩)
    (u : Fin 1) (i : Fin a) : shapeCast ⟨2, ![1, a]⟩ x h (ix2 u i) = x (ix2 i (0 : Fin 1)) :=
  shapeCast_apply x h _ _ (by
    have hu : u.val = 0 := by omega
    rw [Shape.rowMajor_val_two, Shape.rowMajor_val_two]
    show i.val * 1 + 0 = u.val * a + i.val
    rw [hu, Nat.zero_mul, Nat.zero_add, Nat.mul_one, Nat.add_zero])

/-- An `[a, 1]` column broadcast to `[a, b]` reads, at `(p, c)`, the operand's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Columns
-- ==== Proof.Body.lean ====
/-
  What the kernel body stores, read at an index, on the extended reals.

  The body multiplies its 512 × 4096 block of rows by the 4096 × 128 fused array (both passed through a change of
  float format, which is the identity on the extended reals) into a zero accumulator: entry `(p, q)` of the product
  is `∑ k, rows (p, k) * aug (k, q)`. It cuts out columns 0–31 and column 32, squares the first and sums them along
  the row, adds the global offset and column 32, then the sum of squares, and applies the logistic function. So the
  stored column holds, at row `p`, the fused prediction `Spec.fusedPred` of the block's row `p`.
-/
import proofs.«129121_j52080773431609_2_alg».proof.Proof.Gen.KernelIdeal.Skeleton
import proofs.«129121_j52080773431609_2_alg».proof.Proof.Spec
import proofs.«129121_j52080773431609_2_alg».proof.Proof.LibPlainDot
import proofs.«129121_j52080773431609_2_alg».proof.Proof.LibRowOps
import proofs.«129121_j52080773431609_2_alg».proof.Proof.LibColumns
import Idealize.ShloMosaic.Lib.Pipeline.Value

noncomputable section

namespace Cert.KernelIdeal.Body

open Cert.KernelIdeal Cert.KernelIdeal.Gen Idealize.ShloMosaic Idealize.ShloMosaic.ValueIdx
open scoped BigOperators

/-- The product the body forms: the block of rows times the fused array, into the zero accumulator. -/
def product (x0 : Vec Ideal S512x4096 .f32) (x1 : Vec Ideal S4096x128 .f32) : FVec Ideal S512x128 .f32 :=
  matmul dot_S512x4096_S4096x128_S512x128_1_0_0_1_n_n none (truncf .bf16 x0 bitsLt_bf16_f32)
    (truncf .bf16 (shapeCast S4096x128 x1 shapeCasts_S4096x128_S4096x128) bitsLt_bf16_f32)
    (constant (F := Ideal) S512x128 .f32 0x00000000#32)

/-- Entry `(p, q)` of the product: the sum over the 4096 features. -/
theorem product_apply (x0 : Vec Ideal S512x4096 .f32) (x1 : Vec Ideal S4096x128 .f32) (p : Fin 512) (q : Fin 128) :
    product x0 x1 (ix2 p q) = Spec.prod x0 x1 p q := by
  unfold product
  refine (congrFun (Cert.LibPlainDot.matmul_zero_plain (M := 512) (K := 4096) (N := 128) none
    (truncf .bf16 x0 bitsLt_bf16_f32)
    (truncf .bf16 (shapeCast S4096x128 x1 shapeCasts_S4096x128_S4096x128) bitsLt_bf16_f32)) (ix2 p q)).trans ?_
  refine (Cert.LibPlainDot.rowsTimes_apply _ _ p q).trans (Finset.sum_congr rfl fun k _ => ?_)
  exact congrArg (x0 (ix2 p k) * ·) (congrFun (shapeCast_self x1 shapeCasts_S4096x128_S4096x128) (ix2 k q))

/-- Columns 0–31 of the product. -/
def weightCols (x0 : Vec Ideal S512x4096 .f32) (x1 : Vec Ideal S4096x128 .f32) : FVec Ideal S512x32 .f32 :=
  extractStridedSlice S512x32 ![0, 0] (product x0 x1) slices_S512x128_o0_0_S512x32

/-- Column 32 of the product. -/
def linearCol (x0 : Vec Ideal S512x4096 .f32) (x1 : Vec Ideal S4096x128 .f32) : FVec Ideal S512x1 .f32 :=
  extractStridedSlice S512x1 ![0, 32] (product x0 x1) slices_S512x128_o0_32_S512x1

theorem weightCols_apply (x0 : Vec Ideal S512x4096 .f32) (x1 : Vec Ideal S4096x128 .f32) (p : Fin 512) (d : Fin 32) :
    weightCols x0 x1 (ix2 p d) = Spec.prod x0 x1 p (Spec.wcol d) := by
  unfold weightCols
  refine (extractStridedSlice_apply _ _ slices_S512x128_o0_0_S512x32 (ix2 p d) (ix2 p (Spec.wcol d)) (by
    intro a
    match a with
    | ⟨0, _⟩ => show p.val = 0 + p.val; omega
    | ⟨1, _⟩ => show d.val = 0 + d.val; omega)).trans ?_
  exact product_apply x0 x1 p (Spec.wcol d)

theorem linearCol_apply (x0 : Vec Ideal S512x4096 .f32) (x1 : Vec Ideal S4096x128 .f32) (p : Fin 512) (u : Fin 1) :
    linearCol x0 x1 (ix2 p u) = Spec.prod x0 x1 p Spec.lcol := by
  have hu : u.val = 0 := by have := u.isLt; omega
  unfold linearCol
  refine (extractStridedSlice_apply _ _ slices_S512x128_o0_32_S512x1 (ix2 p u) (ix2 p Spec.lcol) (by
    intro a
    match a with
    | ⟨0, _⟩ => show p.val = 0 + p.val; omega
    | ⟨1, _⟩ => show 32 = 32 + u.val; omega)).trans ?_
  exact product_apply x0 x1 p Spec.lcol

/-- The stored value as a tree of the operations above. -/
theorem pay_eq (x0 : Vec Ideal S512x4096 .f32) (x1 : Vec Ideal S4096x128 .f32) (x2 : Vec Ideal S1x1 .f32) :
    k0_pay1 (F := Ideal) x0 x1 x2
      = logistic (addf (addf (broadcast S512x1 (extractAt ![0, 0] x2 inpos_S1x1_p0_0)) (linearCol x0 x1))
          (shapeCast S512x1 (multiReduction .add [1] S512 (mulf (weightCols x0 x1) (weightCols x0 x1)) 0x00000000#32
            reduces_S512x32_S512 (.inl rfl) rfl) shapeCasts_S512_S512x1)) := rfl

/-- The stored column at row `p` is the fused prediction of the block's row `p`. -/
theorem pay_apply (x0 : Vec Ideal S512x4096 .f32) (x1 : Vec Ideal S4096x128 .f32) (x2 : Vec Ideal S1x1 .f32)
    (p : Fin 512) (u : Fin 1) :
    k0_pay1 (F := Ideal) x0 x1 x2 (ix2 p u) = Spec.fusedPred x0 x1 x2 p := by
  rw [pay_eq]
  unfold Spec.fusedPred
  refine congrArg Ideal.logistic (congrArg₂ (· + ·) (congrArg₂ (· + ·) ?_ (linearCol_apply x0 x1 p u)) ?_)
  · -- the global offset, splat over the column
    exact congrArg x2 (funext fun a => Fin.ext (by match a with | ⟨0, _⟩ => rfl | ⟨1, _⟩ => rfl))
  · -- the squares of columns 0–31, summed along the row
    refine (Cert.Columns.shapeCast_a_a1_apply _ shapeCasts_S512_S512x1 p u).trans ?_
    refine (Cert.RowOps.rowSumK _ reduces_S512x32_S512 (.inl rfl) rfl p).trans (Finset.sum_congr rfl fun d _ => ?_)
    exact congrArg₂ (· * ·) (weightCols_apply x0 x1 p d) (weightCols_apply x0 x1 p d)

end Cert.KernelIdeal.Body

end
-- ==== Proof.FusedColumns.lean ====
/-
  The fused weight array, column by column.

  The 4096 × 32 weight vectors and the 4096 × 1 linear weights are put side by side (33 columns) and widened with 95
  more columns of a filling value to 128. Column `d < 32` of the result is column `d` of the weight vectors, and column
  32 is the linear weights; the filling value sits only in columns 33 and up.
-/
import Idealize.ShloMosaic.Lib.Pipeline.Value
import Idealize.ShloMosaic.Lib.KernelVsHost
import Idealize.ShloMosaic.Lib.ValueIdx

namespace Cert.FusedColumns

open Idealize.ShloMosaic Idealize.ShloMosaic.ValueIdx

variable {α : Type}

/-- The two arrays side by side, widened to 128 columns with the one value of `z`. -/
def fused (e : (⟨2, ![4096, 32]⟩ : Shape).Idx → α) (b : (⟨2, ![4096, 1]⟩ : Shape).Idx → α) {u : Shape} (z : u.Idx → α)
    (hc : Shape.Concatenates [(⟨2, ![4096, 32]⟩ : Shape), (⟨2, ![4096, 1]⟩ : Shape)] (⟨2, ![4096, 33]⟩ : Shape) 1)
    (hp : (⟨2, ![4096, 33]⟩ : Shape).Pads (![0, 0] : Fin 2 → Nat) ![0, 95] ![0, 0] (⟨2, ![4096, 128]⟩ : Shape))
    (hu : 0 < u.numel) : (⟨2, ![4096, 128]⟩ : Shape).Idx → α :=
  pad (⟨2, ![4096, 128]⟩ : Shape) ![0, 0] ![0, 95] ![0, 0]
    (concatenate (⟨2, ![4096, 33]⟩ : Shape) 1 [⟨(⟨2, ![4096, 32]⟩ : Shape), e⟩, ⟨(⟨2, ![4096, 1]⟩ : Shape), b⟩] hc) z hp hu

/-- Columns 0 to 32 are inside the 33 columns put side by side. -/
theorem fused_inside (e : (⟨2, ![4096, 32]⟩ : Shape).Idx → α) (b : (⟨2, ![4096, 1]⟩ : Shape).Idx → α) {u : Shape} (z : u.Idx → α)
    (hc : Shape.Concatenates [(⟨2, ![4096, 32]⟩ : Shape), (⟨2, ![4096, 1]⟩ : Shape)] (⟨2, ![4096, 33]⟩ : Shape) 1)
    (hp : (⟨2, ![4096, 33]⟩ : Shape).Pads (![0, 0] : Fin 2 → Nat) ![0, 95] ![0, 0] (⟨2, ![4096, 128]⟩ : Shape))
    (hu : 0 < u.numel) (k : Fin 4096) (q : Fin 33) :
    fused e b z hc hp hu (ix2 k (⟨q.val, by have := q.isLt; omega⟩ : Fin 128))
      = concatenate (⟨2, ![4096, 33]⟩ : Shape) 1 [⟨(⟨2, ![4096, 32]⟩ : Shape), e⟩, ⟨(⟨2, ![4096, 1]⟩ : Shape), b⟩] hc (ix2 k q) :=
  pad_apply_of_inside _ _ _ _ z hp hu _ (ix2 k q) fun a => by
    match a with
    | ⟨0, _⟩ => show k.val = 0 + k.val * (0 + 1); omega
    | ⟨1, _⟩ => show q.val = 0 + q.val * (0 + 1); omega

/-- Column `d < 32` of the fused array is column `d` of the weight vectors. -/
theorem fused_weights (e : (⟨2, ![4096, 32]⟩ : Shape).Idx → α) (b : (⟨2, ![4096, 1]⟩ : Shape).Idx → α) {u : Shape} (z : u.Idx → α)
    (hc : Shape.Concatenates [(⟨2, ![4096, 32]⟩ : Shape), (⟨2, ![4096, 1]⟩ : Shape)] (⟨2, ![4096, 33]⟩ : Shape) 1)
    (hp : (⟨2, ![4096, 33]⟩ : Shape).Pads (![0, 0] : Fin 2 → Nat) ![0, 95] ![0, 0] (⟨2, ![4096, 128]⟩ : Shape))
    (hu : 0 < u.numel) (k : Fin 4096) (d : Fin 32) :
    fused e b z hc hp hu (ix2 k (⟨d.val, by have := d.isLt; omega⟩ : Fin 128)) = e (ix2 k d) :=
  (fused_inside e b z hc hp hu k ⟨d.val, by have := d.isLt; omega⟩).trans
    (concatenate_pair_apply_left 1 e b hc _ rfl (ix2 k d) fun a => by
      match a with
      | ⟨0, _⟩ => rfl
      | ⟨1, _⟩ => rfl)

/-- Column 32 of the fused array is the linear weights. -/
theorem fused_linear (e : (⟨2, ![4096, 32]⟩ : Shape).Idx → α) (b : (⟨2, ![4096, 1]⟩ : Shape).Idx → α) {u : Shape} (z : u.Idx → α)
    (hc : Shape.Concatenates [(⟨2, ![4096, 32]⟩ : Shape), (⟨2, ![4096, 1]⟩ : Shape)] (⟨2, ![4096, 33]⟩ : Shape) 1)
    (hp : (⟨2, ![4096, 33]⟩ : Shape).Pads (![0, 0] : Fin 2 → Nat) ![0, 95] ![0, 0] (⟨2, ![4096, 128]⟩ : Shape))
    (hu : 0 < u.numel) (k : Fin 4096) :
    fused e b z hc hp hu (ix2 k (⟨32, by omega⟩ : Fin 128)) = b (ix2 k (0 : Fin 1)) :=
  (fused_inside e b z hc hp hu k ⟨32, by omega⟩).trans
    (concatenate_pair_apply_right 1 e b hc _ rfl rfl (ix2 k (0 : Fin 1))
      (fun a ha => by
        match a with
        | ⟨0, _⟩ => rfl
        | ⟨1, _⟩ => exact absurd rfl ha)
      (by show 0 + 32 = 32; rfl))

end Cert.FusedColumns
-- ==== Proof.Entry.lean ====
/-
  What the region finds in the fused array's buffer.

  Before the region the program puts the weight vectors and the linear weights side by side and widens the result to
  128 columns with the value of the integer zero converted to a float: the buffer the second window stages holds
  `FusedColumns.fused` of the two argument arrays.
-/
import proofs.«129121_j52080773431609_2_alg».proof.Proof.Gen.KernelIdeal.Frame
import proofs.«129121_j52080773431609_2_alg».proof.Proof.FusedColumns
import Idealize.ShloMosaic.Lib.StableHlo.Run

noncomputable section

namespace Cert.KernelIdeal.Entry

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ)

/-- The value the extra columns are filled with: the integer zero as a float. -/
abbrev filler : S_.Idx → EReal := sitofp (F := Ideal) .f32 (constantI S_ 32 0#32)

/-- The fused array as the region finds it. -/
theorem fused_entry (c : Dev nD) :
    (V m c main_v1 : S4096x128.Idx → EReal)
      = Cert.FusedColumns.fused (m ((c : Thread nD τ).loc main_arg1)) (m ((c : Thread nD τ).loc main_arg2)) filler
          concatenates_S4096x32_S4096x1_S4096x33_d1 pads_S4096x33_S4096x128_000_0950 h_S_ := by
  dsimp only [V, V0]
  simp only [hostOps0, hostOps0_1, List.flatten_cons, List.flatten_nil, List.append_nil, List.cons_append, List.nil_append]
  after_results
  rfl

end Cert.KernelIdeal.Entry

end
-- ==== Proof.Blocks.lean ====
/-
  From the two row blocks to the whole output column.

  The grid has two points. Point `t` stages rows `512 t … 512 t + 511` of `data`, the whole fused array and the whole
  1 × 1 offset, and writes back rows `512 t … 512 t + 511` of the 1024 × 1 output. A row's prediction depends on that
  row of `data` only, so what point `t` writes back is rows `512 t …` of ONE column: the fused predictions
  `Spec.fusedCol` of all 1024 rows. The two blocks cover the column (row `r` lies in block `r / 512`), so after the run
  the output array is that column.
-/
import proofs.«129121_j52080773431609_2_alg».proof.Proof.Gen.KernelIdeal.Frame
import proofs.«129121_j52080773431609_2_alg».proof.Proof.Body
import proofs.«129121_j52080773431609_2_alg».proof.Proof.Entry
import Idealize.ShloMosaic.Lib.Pipeline.Value

set_option maxRecDepth 16384

noncomputable section

namespace Cert.KernelIdeal.Blocks

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ)

theorem offsets_zero : (![0, 0] : Fin 2 → Nat) = fun _ => 0 := funext fun a => by fin_cases a <;> rfl

/-- The fused array built from the argument arrays, as the region finds it. -/
abbrev aug (c : Dev nD) : S4096x128.Idx → EReal :=
  Cert.FusedColumns.fused (m ((c : Thread nD τ).loc main_arg1)) (m ((c : Thread nD τ).loc main_arg2)) Entry.filler
    concatenates_S4096x32_S4096x1_S4096x33_d1 pads_S4096x33_S4096x128_000_0950 h_S_

/-- The column of fused predictions of all 1024 rows, from the argument arrays. -/
abbrev column (c : Dev nD) : S1024x1.Idx → EReal :=
  Spec.fusedCol (m ((c : Thread nD τ).loc main_arg0)) (aug m c) (m ((c : Thread nD τ).loc main_arg3))

/-- One point, over plain arrays: if the staged rows are rows `o, o + 1, …` of `data`, the stored column at row `y`
    is the fused prediction of row `o + y`. -/
theorem point_eq (data : S1024x4096.Idx → EReal) (fusedArr : S4096x128.Idx → EReal) (gb : S1x1.Idx → EReal)
    (x0 : Vec Ideal S512x4096 .f32) (x1 : Vec Ideal S4096x128 .f32) (x2 : Vec Ideal S1x1 .f32) (o : ℕ)
    (h0 : ∀ (y : Fin 512) (k : Fin 4096) (h : o + y.val < 1024), x0 (ix2 y k) = data (ix2 (⟨o + y.val, h⟩ : Fin 1024) k))
    (h1 : x1 = fusedArr) (h2 : x2 = gb)
    (j : S512x1.Idx) (i : S1024x1.Idx) (hi : (i 0).val = o + (j 0).val) :
    k0_pay1 (F := Ideal) x0 x1 x2 j = Spec.fusedCol data fusedArr gb i := by
  subst h1 h2
  obtain ⟨p, u, rfl⟩ : ∃ (p : Fin 512) (u : Fin 1), j = ix2 p u := ⟨j 0, j 1, eq_ix2 j⟩
  have hi' : (i 0).val = o + p.val := hi
  have hM : o + p.val < 1024 := by have := idx2_lt0 i; omega
  rw [Body.pay_apply]
  unfold Spec.fusedCol
  have ei : (⟨(i 0).val, idx2_lt0 i⟩ : Fin 1024) = ⟨o + p.val, hM⟩ := Fin.ext hi'
  rw [ei]
  exact Spec.fusedPred_rows o data x0 x1 x2 p hM fun k => h0 p k hM

/-- The printed index maps, decided over the two points: the rows window and the output window move together, the
    other two windows stay at block 0. -/
theorem idx_facts : ∀ t : Fin cfg0.N, win0_0.index t (0 : Fin 2) = win0_3.index t (0 : Fin 2)
    ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (1 : Fin 2) = 0 ∧ win0_3.index t (0 : Fin 2) ≤ 1 :=
  (by decide +kernel : ∀ t : Fin grid0.N, _)

/-- Each of the two row blocks is some point's. -/
theorem idx_onto : ∀ q : Fin 2, ∃ t : Fin cfg0.N, win0_3.index t (0 : Fin 2) = q.val :=
  (by decide +kernel : ∀ q : Fin 2, ∃ t : Fin grid0.N, win0_3.index t (0 : Fin 2) = q.val)

/-- What point `t` writes back is block `t` of the column of fused predictions. -/
theorem flushed_eq (c : Dev nD) (t : Fin cfg0.N) :
    (dats m 0 c).flushed 3 t = ((cfg0.win 3).blk t).view.read (Elt Ideal) (column m c) := by
  show (cfg0.win 3).cut (grid0.coords t) ((dats m 0 c).after 3 t) = _
  rw [after0_3]
  unfold out0_3
  rw [View.canon_unit_zero offsets_zero]
  simp only [View.ld_unit_zero (S := S512x4096) offsets_zero, View.ld_unit_zero (S := S4096x128) offsets_zero,
    View.ld_unit_zero (S := S1x1) offsets_zero]
  obtain ⟨e0, e1, e2, e3, e4, e5, e6, e7⟩ := idx_facts t
  funext j
  show k0_pay1 (F := Ideal) (iblk m c 0 t) (iblk m c 1 t) (iblk m c 2 t) j = column m c (((cfg0.win 3).blk t).view.emb j)
  refine point_eq (m ((c : Thread nD τ).loc main_arg0)) (aug m c) (m ((c : Thread nD τ).loc main_arg3))
    (iblk m c 0 t) (iblk m c 1 t) (iblk m c 2 t) (win0_3.index t (0 : Fin 2) * 512) ?_ ?_ ?_ j _ ?_
  · intro y k h
    show V m c main_arg0 (((cfg0.win 0).blk t).view.emb (ix2 y k)) = _
    rw [V_main_arg0]
    refine congrArg _ (funext fun a => Fin.ext ?_)
    match a with
    | ⟨0, _⟩ => show win0_0.index t (0 : Fin 2) * 512 + 1 * y.val = win0_3.index t (0 : Fin 2) * 512 + y.val; omega
    | ⟨1, _⟩ => show win0_0.index t (1 : Fin 2) * 4096 + 1 * k.val = k.val; omega
  · funext y
    show V m c main_v1 (((cfg0.win 1).blk t).view.emb y) = _
    rw [Entry.fused_entry]
    refine congrArg _ (funext fun a => Fin.ext ?_)
    match a with
    | ⟨0, _⟩ => show win0_1.index t (0 : Fin 2) * 4096 + 1 * (y 0).val = (y 0).val; omega
    | ⟨1, _⟩ => show win0_1.index t (1 : Fin 2) * 128 + 1 * (y 1).val = (y 1).val; omega
  · funext y
    show V m c main_arg3 (((cfg0.win 2).blk t).view.emb y) = _
    rw [V_main_arg3]
    refine congrArg _ (funext fun a => Fin.ext ?_)
    match a with
    | ⟨0, _⟩ => show win0_2.index t (0 : Fin 2) * 1 + 1 * (y 0).val = (y 0).val; omega
    | ⟨1, _⟩ => show win0_2.index t (1 : Fin 2) * 1 + 1 * (y 1).val = (y 1).val; omega
  · show win0_3.index t (0 : Fin 2) * 512 + 1 * (j 0).val = win0_3.index t (0 : Fin 2) * 512 + (j 0).val
    omega

/-- A row of the output is in point `t`'s block iff each coordinate is in the block's range. -/
theorem mem_blk (t : Fin cfg0.N) (i : S1024x1.Idx) :
    i ∈ ((cfg0.win 3).blk t).view.set ↔ ∀ a : Fin 2, win0_3.index t a * S512x1.size a ≤ (i a).val
      ∧ (i a).val < win0_3.index t a * S512x1.size a + S512x1.size a := by
  show i ∈ ((View.whole main_v2).slice (win0_3.rect t)).set ↔ _
  rw [View.set_slice_whole, Rect.mem_set_unit]
  exact Iff.rfl

/-- Every row of the output is in some point's block: row `r` in block `r / 512`. -/
theorem cover (i : S1024x1.Idx) : ∃ t : Fin cfg0.N, (cfg0.win 3).flush t = true ∧ i ∈ ((cfg0.win 3).blk t).view.set := by
  have hi0 : (i 0).val < 1024 := (i 0).isLt
  have hi1 : (i 1).val < 1 := (i 1).isLt
  obtain ⟨t, ht⟩ := idx_onto ⟨(i 0).val / 512, by omega⟩
  have q0 : win0_3.index t (0 : Fin 2) = (i 0).val / 512 := ht
  obtain ⟨-, -, -, -, -, -, e6, -⟩ := idx_facts t
  refine ⟨t, flush0_3 t, ?_⟩
  rw [mem_blk]
  intro a
  match a with
  | ⟨0, _⟩ =>
    show win0_3.index t (0 : Fin 2) * 512 ≤ (i 0).val ∧ (i 0).val < win0_3.index t (0 : Fin 2) * 512 + 512
    omega
  | ⟨1, _⟩ =>
    show win0_3.index t (1 : Fin 2) * 1 ≤ (i 1).val ∧ (i 1).val < win0_3.index t (1 : Fin 2) * 1 + 1
    omega

/-- The output array after the run: the column of fused predictions of all rows. -/
theorem final (c : Dev nD) : (dats m 0 c).arrAt 3 cfg0.N = column m c :=
  (dats m 0 c).arrAt_eq_of_cover 3 (column m c) (fun t _ => flushed_eq m c t) cover

end Cert.KernelIdeal.Blocks

end
-- ==== Proof.KernelRun.lean ====
/-
  The kernel program's run, with its result named.

  After the region the program reads the 1024 × 1 output column as a vector of 1024 entries: entry `r` is the column's
  row `r`, the fused prediction of row `r`. The fused array's columns 0–31 are the weight vectors and its column 32 the
  linear weights, so the fused prediction is the prediction `Spec.pred`: the program's result is `Spec.predVec` of its
  four argument arrays, which end unchanged.
-/
import proofs.«129121_j52080773431609_2_alg».proof.Proof.Gen.KernelIdeal.Frame
import proofs.«129121_j52080773431609_2_alg».proof.Proof.Blocks
import Idealize.ShloMosaic.Lib.StableHlo.Run

set_option maxRecDepth 16384

noncomputable section

namespace Cert.KernelIdeal.KernelRun

open Cert.KernelIdeal Cert.KernelIdeal.Gen Idealize.ShloMosaic Idealize.ShloMosaic.TcCoe Idealize.SL.Sem
open Idealize.ShloMosaic.ValueIdx Idealize.ShloMosaic.StableHlo
open Idealize.ShloMosaic.Pipeline (Dat)

variable (m : (ℓ : Loc nD τ sig) → Buf (Elt Ideal) ℓ) (ρ : Dev nD → PrngReg)

/-- The prediction vector of the four argument arrays as launched. -/
abbrev result (c : Dev nD) : S1024.Idx → EReal :=
  Spec.predVec (m ((c : Thread nD τ).loc main_arg0)) (m ((c : Thread nD τ).loc main_arg1))
    (m ((c : Thread nD τ).loc main_arg2)) (m ((c : Thread nD τ).loc main_arg3))

/-- The line after the region reads the output column as a vector. -/
theorem tail_eq (c : Dev nD) :
    Pipeline.afterTail₀ cfgs (dats m) 0 (V0 m) [hostOps1] c main_v3
      = shapeCast S1024 ((dats m 0 c).arrAt 3 cfg0.N) shapeCasts_S1024x1_S1024 := by
  unfold Pipeline.afterTail₀
  show StableHlo.after hostOps1 _ (Proc.devRef .tc main_v3) = _
  after_results
  exact congrArg (fun x => shapeCast S1024 x shapeCasts_S1024x1_S1024)
    (Pipeline.withArrays_arr spec0 launch0.win.arr_inj c _ _ 3)

/-- The column of fused predictions read as a vector is the prediction vector. -/
theorem column_as_vector (c : Dev nD) :
    shapeCast S1024 (Blocks.column m c) shapeCasts_S1024x1_S1024 = result m c := by
  funext i
  obtain ⟨r, rfl⟩ : ∃ r : Fin 1024, i = ix1 r := ⟨i 0, eq_ix1 i⟩
  refine (shapeCast_apply (Blocks.column m c) shapeCasts_S1024x1_S1024 (ix1 r) (ix2 r (0 : Fin 1)) ?_).trans ?_
  · rw [Shape.rowMajor_val_two, Shape.rowMajor_val_one]
    show r.val * 1 + 0 = r.val
    omega
  · exact Spec.fusedPred_eq_pred _ _ _ _ (Blocks.aug m c)
      (fun k d => Cert.FusedColumns.fused_weights _ _ _ _ _ _ k d)
      (fun k => Cert.FusedColumns.fused_linear _ _ _ _ _ _ k) r

/-- The result buffer after the lines that follow the region. -/
theorem result_eq (c : Dev nD) :
    Pipeline.afterTail₀ cfgs (dats m) 0 (V0 m) [hostOps1] c main_v3 = result m c := by
  rw [tail_eq, Blocks.final]
  exact column_as_vector m c

/-- Every weakly fair execution of the program terminates with the result buffer at the prediction vector and the four
    argument arrays unchanged. -/
theorem run : θ_run defs (onTc (τ := τ) (main (F := Ideal))) ⟨m, fun _ => 0, ρ⟩ fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v3 (Pipeline.mem_restRefs_of main_v3 (by decide) (by decide))).trans (result_eq m c),
      ((h c).1 0).trans (((dats m 0 c).arrAt_in 0 rfl _).trans ((A_eq m c 0).trans (V_main_arg0 m c))),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).1 2).trans (((dats m 0 c).arrAt_in 2 rfl _).trans ((A_eq m c 2).trans (V_main_arg3 m c)))⟩)
    (run_main m ρ)

end Cert.KernelIdeal.KernelRun

end
-- ==== Proof.RefSide.lean ====
/-
  The reference's result, stage by stage, is the prediction vector `Spec.predVec`.

  The reference spreads `data` and the weight vectors over a 1024 × 4096 × 32 array of products and sums its middle
  axis: entry `(r, d)` is `0 + ∑ k, data (r, k) * embed (k, d)`, the projection `Spec.proj`. It squares these and sums
  them along each row, multiplies `data` by the linear weights spread along the rows and sums each row (the linear term
  `Spec.lin`), adds the global offset — a 1 × 1 array read as a scalar — and finishes with `1 / (1 + exp (-z))`, which
  is the logistic function. The zeros the sums start from vanish: `0 + x = x` for every extended real.
-/
import proofs.«129121_j52080773431609_2_alg».proof.Proof.Gen.ReferenceIdeal.Read
import proofs.«129121_j52080773431609_2_alg».proof.Proof.Spec
import Idealize.ShloMosaic.Lib.IdealHost

noncomputable section

namespace Cert.ReferenceIdeal.RefValue

open Cert.ReferenceIdeal Cert.ReferenceIdeal.Gen Cert.ReferenceIdeal.Read Idealize.ShloMosaic Idealize.ShloMosaic.ValueIdx
open scoped BigOperators

/-- The middle-axis sum of the spread products, at `(r, d)`: the projection. -/
theorem proj_eq (x0 : (⟨S1024x4096, .f32⟩ : BufTy).Contents (Elt Ideal)) (x1 : (⟨S4096x32, .f32⟩ : BufTy).Contents (Elt Ideal))
    (r : Fin 1024) (d : Fin 32) : val_main_v5 (F := Ideal) x0 x1 (ix2 r d) = Spec.proj x0 x1 r d := by
  rw [val_main_v5_apply]
  simp only [val_main_cst_apply, Ideal.ofBits_def, Ideal.ofBits_zero_f32, zero_add]
  refine Finset.sum_congr rfl fun k _ => ?_
  rw [val_main_v4_apply, val_main_v2_apply, val_main_v0_apply, val_main_v3_apply, val_main_v1_apply]
  have e0 : idx_main_v0 (idx_main_v2 (idx_main_v5 (ix2 r d) k)) = ix2 r k :=
    funext fun a => Fin.ext (by match a with | ⟨0, _⟩ => rfl | ⟨1, _⟩ => rfl)
  have e1 : idx_main_v1 (idx_main_v3 (idx_main_v5 (ix2 r d) k)) = ix2 k d :=
    funext fun a => Fin.ext (by match a with | ⟨0, _⟩ => rfl | ⟨1, _⟩ => rfl)
  rw [e0, e1]
  rfl

/-- The row sums of the squared projections. -/
theorem squares_eq (x0 : (⟨S1024x4096, .f32⟩ : BufTy).Contents (Elt Ideal)) (x1 : (⟨S4096x32, .f32⟩ : BufTy).Contents (Elt Ideal))
    (r : Fin 1024) :
    val_main_v7 (F := Ideal) x0 x1 (ix1 r) = ∑ d : Fin 32, Spec.proj x0 x1 r d * Spec.proj x0 x1 r d := by
  rw [val_main_v7_apply]
  simp only [val_main_cst_0_apply, Ideal.ofBits_def, Ideal.ofBits_zero_f32, zero_add]
  refine Finset.sum_congr rfl fun d _ => ?_
  have e : idx_main_v7 (ix1 r) d = ix2 r d :=
    funext fun a => Fin.ext (by match a with | ⟨0, _⟩ => rfl | ⟨1, _⟩ => rfl)
  rw [val_main_v6_apply, e, proj_eq]
  rfl

/-- The row sums of `data` times the linear weights spread along the rows: the linear term. -/
theorem lin_eq (x0 : (⟨S1024x4096, .f32⟩ : BufTy).Contents (Elt Ideal)) (x2 : (⟨S4096x1, .f32⟩ : BufTy).Contents (Elt Ideal))
    (r : Fin 1024) : val_main_v12 (F := Ideal) x0 x2 (ix1 r) = Spec.lin x0 x2 r := by
  rw [val_main_v12_apply]
  simp only [val_main_cst_1_apply, Ideal.ofBits_def, Ideal.ofBits_zero_f32, zero_add]
  refine Finset.sum_congr rfl fun k _ => ?_
  rw [val_main_v11_apply, val_main_v10_apply, val_main_v9_apply, val_main_v8_apply]
  have e0 : idx_main_v12 (ix1 r) k = ix2 r k :=
    funext fun a => Fin.ext (by match a with | ⟨0, _⟩ => rfl | ⟨1, _⟩ => rfl)
  have e1 : idx_main_v8 (idx_main_v9 (idx_main_v10 (idx_main_v12 (ix1 r) k))) = ix2 k (0 : Fin 1) :=
    funext fun a => Fin.ext (by match a with | ⟨0, _⟩ => exact Nat.div_one _ | ⟨1, _⟩ => rfl)
  rw [e1, e0]
  rfl

/-- The 1 × 1 global offset read as a scalar and spread over the vector: its one entry everywhere. -/
theorem offset_eq (x3 : (⟨S1x1, .f32⟩ : BufTy).Contents (Elt Ideal)) (i : S1024.Idx) :
    val_main_v14 (F := Ideal) x3 i = x3 (ix2 (0 : Fin 1) (0 : Fin 1)) := by
  rw [val_main_v14_apply]
  unfold val_main_v13
  refine shapeCast_apply x3 shapeCasts_S1x1_S_ _ (ix2 (0 : Fin 1) (0 : Fin 1)) ?_
  have e : S_.numel = 1 := by decide
  have a : (S_.rowMajor (idx_main_v14 i)).val < 1 := lt_of_lt_of_eq (S_.rowMajor (idx_main_v14 i)).isLt e
  show (S1x1.rowMajor (ix2 (0 : Fin 1) (0 : Fin 1))).val = _
  rw [Shape.rowMajor_val_two]
  show 0 * 1 + 0 = _
  omega

/-- The reference's last stage is the prediction vector. -/
theorem ref_eq (x0 : (⟨S1024x4096, .f32⟩ : BufTy).Contents (Elt Ideal)) (x1 : (⟨S4096x32, .f32⟩ : BufTy).Contents (Elt Ideal))
    (x2 : (⟨S4096x1, .f32⟩ : BufTy).Contents (Elt Ideal)) (x3 : (⟨S1x1, .f32⟩ : BufTy).Contents (Elt Ideal)) :
    val_main_v22 (F := Ideal) x0 x1 x2 x3 = Spec.predVec x0 x1 x2 x3 := by
  funext i
  obtain ⟨r, rfl⟩ : ∃ r : Fin 1024, i = ix1 r := ⟨i 0, eq_ix1 i⟩
  rw [val_main_v22_apply, val_main_v21_apply, val_main_v20_apply, val_main_v19_apply, val_main_v18_apply,
    val_main_v17_apply, val_main_v16_apply, val_main_v15_apply, offset_eq, lin_eq, squares_eq]
  simp only [val_main_cst_3_apply, val_main_cst_2_apply, Ideal.ofBits_def, Ideal.ofBits_one_f32]
  rfl

end Cert.ReferenceIdeal.RefValue

end
-- ==== Proof.lean ====
/-
  A second-order factorization model's predictions, computed two ways, agree on the extended reals.

  For each of 1024 rows of 4096 feature values the prediction is
      logistic ((gb + ∑ k, data (r, k) * bias (k)) + ∑ d, (∑ k, data (r, k) * embed (k, d))²).
  The reference forms the products `data (r, k) * embed (k, d)` in a 1024 × 4096 × 32 array and sums over `k`; the kernel
  puts the 32 weight columns and the linear weights side by side as columns 0–32 of one 4096 × 128 array and reads both
  sums off ONE product with it, 512 rows at a time. Term by term the two sides are sums of the same products, added in
  the same grouping, and `1 / (1 + e^(-z))` is the logistic function, so the results are equal for all extended-real
  inputs; finiteness of the inputs is not used.

  The modules: `Spec` (the prediction, its fused form, and that they agree), `RefSide` (the reference's result is the
  prediction vector), `FusedColumns` and `Entry` (the fused array's columns), `Body` (what the kernel body stores),
  `Blocks` (the two row blocks make the whole output column), `KernelRun` (the kernel program's result).
-/
import proofs.«129121_j52080773431609_2_alg».proof.Defs
import proofs.«129121_j52080773431609_2_alg».proof.Proof.Gen.Kernel
import proofs.«129121_j52080773431609_2_alg».proof.Proof.Gen.Kernel.Skeleton
import proofs.«129121_j52080773431609_2_alg».proof.Proof.Gen.Kernel.Launch
import proofs.«129121_j52080773431609_2_alg».proof.Proof.Gen.Kernel.Points
import proofs.«129121_j52080773431609_2_alg».proof.Proof.Gen.Kernel.Frame
import proofs.«129121_j52080773431609_2_alg».proof.Proof.Gen.KernelIdeal
import proofs.«129121_j52080773431609_2_alg».proof.Proof.Gen.KernelIdeal.Skeleton
import proofs.«129121_j52080773431609_2_alg».proof.Proof.Gen.KernelIdeal.Launch
import proofs.«129121_j52080773431609_2_alg».proof.Proof.Gen.KernelIdeal.Points
import proofs.«129121_j52080773431609_2_alg».proof.Proof.Gen.KernelIdeal.Frame
import proofs.«129121_j52080773431609_2_alg».proof.Proof.Gen.ReferenceIdeal
import proofs.«129121_j52080773431609_2_alg».proof.Proof.Gen.ReferenceIdeal.Run
import proofs.«129121_j52080773431609_2_alg».proof.Proof.Gen.ReferenceIdeal.Read
import proofs.«129121_j52080773431609_2_alg».proof.Proof.Gen.Pre_finite_inputs
import proofs.«129121_j52080773431609_2_alg».proof.Proof.KernelRun
import proofs.«129121_j52080773431609_2_alg».proof.Proof.RefSide
import Idealize.ShloMosaic.Adequacy
import Idealize.ShloMosaic.Init

noncomputable section

namespace Cert.Proof

open Idealize.ShloMosaic Idealize.SL.Sem

/-- The kernel program as printed runs and leaves its arguments unchanged. -/
theorem frame_kernel : Cert.frame_Kernel := fun m ρ _ => Cert.Kernel.Gen.frame m ρ

/-- So does its reading on the extended reals. -/
theorem frame_kernel_ideal : Cert.frame_KernelIdeal := fun m ρ _ => Cert.KernelIdeal.Gen.frame m ρ

/-- The reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- Both programs end with the prediction vector of the argument arrays, which agree. -/
theorem algebraic : Cert.algebraic_KernelIdeal_ReferenceIdeal := by
  intro m ρ m' ρ' _ hagree
  refine ⟨fun c => Cert.KernelIdeal.KernelRun.result m c, Cert.KernelIdeal.KernelRun.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v22_eq, Cert.ReferenceIdeal.RefValue.ref_eq,
    (hagree c).1, (hagree c).2.1, (hagree c).2.2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, trivial, algebraic⟩

end Cert.Proof

end
